-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x100000 : Shape := ⟨2, ![2, 100000]⟩
abbrev S512x512 : Shape := ⟨2, ![512, 512]⟩
abbrev S512 : Shape := ⟨1, ![512]⟩
abbrev S_ : Shape := ⟨0, ![]⟩
abbrev S1x100000 : Shape := ⟨2, ![1, 100000]⟩
abbrev S100000 : Shape := ⟨1, ![100000]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  slices_S2x100000_S1x100000_1_0 : S2x100000.Slices ![1, 0] S1x100000
  shapeCasts_S1x100000_S100000 : S1x100000.ShapeCasts S100000
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v15 : IVec S100000 32) (main_v16 : IVec S100000 32) : IVec S_ 1 :=
  let main_v17 : IVec S100000 1 := cmpi .sge main_v15 main_v16
  let main_c_5 : IVec S_ 1 := constantI S_ 1 1#1
  let main_v18 : IVec S_ 1 := (fun x v => Host.reduce IntOp.andi x v reducesTo_S100000_S_d0 h_S_) main_v17 main_c_5
  let main_v19 : IVec S_ 1 := andi main_v13 main_v18
  main_v19

def fn {F : FTy → Type} [FloatOps F] (main_arg0 : FVec F S100000x512 .f32) (main_arg1 : IVec S2x100000 32) (main_arg2 : FVec F S512x512 .f32) (main_arg3 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : IVec S1x100000 32 := (extractStridedSlice S1x100000 ![1, 0] · slices_S2x100000_S1x100000_1_0) main_arg1
  let main_v15 : IVec S100000 32 := shapeCast S100000 main_v14 shapeCasts_S1x100000_S100000
  let main_c_4 : IVec S_ 32 := constantI S_ 32 0#32
  let main_v16 : IVec S100000 32 := broadcastInDim S100000 ![] bcast_S_S100000 main_c_4
  fn_part1 (F := F) main_v13 main_v15 main_v16
-- ==== Kernel.lean ====
abbrev S100000x512 : Shape := ⟨2, ![100000, 512]⟩
abbrev S2x100000 : Shape := ⟨2, ![2, 100000]⟩
abbrev S512x512 : Shape := ⟨2, ![512, 512]⟩
abbrev S512 : Shape := ⟨1, ![512]⟩
abbrev S1x100000 : Shape := ⟨2, ![1, 100000]⟩
abbrev S100000 : Shape := ⟨1, ![100000]⟩
abbrev S100000x1 : Shape := ⟨2, ![100000, 1]⟩
abbrev S_ : Shape := ⟨0, ![]⟩
abbrev S1x512 : Shape := ⟨2, ![1, 512]⟩
abbrev S2000x512 : Shape := ⟨2, ![2000, 512]⟩
abbrev S2000x1 : Shape := ⟨2, ![2000, 1]⟩

abbrev nBuf : Space → Nat
  | .hbm => 16
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S2x100000, .i32⟩
  | .hbm, ⟨2, _⟩ => ⟨S512x512, .f32⟩
  | .hbm, ⟨3, _⟩ => ⟨S512, .f32⟩
  | .hbm, ⟨4, _⟩ => ⟨S1x100000, .i32⟩
  | .hbm, ⟨5, _⟩ => ⟨S100000, .i32⟩
  | .hbm, ⟨6, _⟩ => ⟨S100000x1, .f32⟩
  | .hbm, ⟨7, _⟩ => ⟨S100000, .f32⟩
  | .hbm, ⟨8, _⟩ => ⟨S_, .f32⟩
  | .hbm, ⟨9, _⟩ => ⟨S100000, .f32⟩
  | .hbm, ⟨10, _⟩ => ⟨S100000x1, .i32⟩
  | .hbm, ⟨11, _⟩ => ⟨S100000, .f32⟩
  | .hbm, ⟨12, _⟩ => ⟨S100000x1, .f32⟩
  | .hbm, ⟨13, _⟩ => ⟨S512x512, .bf16⟩
  | .hbm, ⟨14, _⟩ => ⟨S1x512, .f32⟩
  | .hbm, ⟨15, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S2000x1, .f32⟩
  | .local _ .vmem, ⟨5, _⟩ => ⟨S2000x1, .f32⟩
  | .local _ .vmem, ⟨6, _⟩ => ⟨S2000x512, .f32⟩
  | .local _ .vmem, ⟨7, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x100000_S1x100000_1_0 : S2x100000.Slices ![1, 0] S1x100000
  shapeCasts_S1x100000_S100000 : S1x100000.ShapeCasts S100000
  slices_S100000x512_S100000x1_0_0 : S100000x512.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  shapeCasts_S100000_S100000x1 : S100000.ShapeCasts S100000x1
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  scatter_S100000_S100000x1_S100000_n_0_0_1_wf : ScatterDims.WF S100000 S100000x1 S100000 [] [0] [0] 1
  dot_S2000x512_S512x512_S2000x512_1_1_0_0_n_n_wf : DotDims.WF S2000x512 S512x512 S2000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S100000x512.size a
  hwx0_4 : ∀ i : grid0.Coords, EltTy.bits .f32 = 32 ∨ (Rect.block (s := S100000x512) S2000x512.size (cc0_transform_4 i) (hinb0_4 i)).WholeWords (EltTy.packing .f32)

variable [Facts₀]

def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x100000 : Shape := ⟨2, ![2, 100000]⟩
abbrev S512x512 : Shape := ⟨2, ![512, 512]⟩
abbrev S512 : Shape := ⟨1, ![512]⟩
abbrev S1x512 : Shape := ⟨2, ![1, 512]⟩
abbrev S_ : Shape := ⟨0, ![]⟩
abbrev S1x100000 : Shape := ⟨2, ![1, 100000]⟩
abbrev S100000 : Shape := ⟨1, ![100000]⟩
abbrev S100000x1 : Shape := ⟨2, ![100000, 1]⟩
abbrev S100000x2 : Shape := ⟨2, ![100000, 2]⟩

abbrev nBuf : Space → Nat
  | .hbm => 29
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x100000, .i32⟩
  | .hbm, ⟨2, _⟩ => ⟨S512x512, .f32⟩
  | .hbm, ⟨3, _⟩ => ⟨S512, .f32⟩
  | .hbm, ⟨4, _⟩ => ⟨S100000x512, .f32⟩
  | .hbm, ⟨5, _⟩ => ⟨S1x512, .f32⟩
  | .hbm, ⟨6, _⟩ => ⟨S100000x512, .f32⟩
  | .hbm, ⟨7, _⟩ => ⟨S100000x512, .f32⟩
  | .hbm, ⟨8, _⟩ => ⟨S_, .f32⟩
  | .hbm, ⟨9, _⟩ => ⟨S100000x512, .f32⟩
  | .hbm, ⟨10, _⟩ => ⟨S100000x512, .f32⟩
  | .hbm, ⟨11, _⟩ => ⟨S1x100000, .i32⟩
  | .hbm, ⟨12, _⟩ => ⟨S100000, .i32⟩
  | .hbm, ⟨13, _⟩ => ⟨S100000x1, .f32⟩
  | .hbm, ⟨14, _⟩ => ⟨S100000, .f32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S_, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x1, .i32⟩
  | .hbm, ⟨27, _⟩ => ⟨S100000x2, .i32⟩
  | .hbm, ⟨28, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  slices_S2x100000_S1x100000_1_0 : S2x100000.Slices ![1, 0] S1x100000
  shapeCasts_S1x100000_S100000 : S1x100000.ShapeCasts S100000
  slices_S100000x512_S100000x1_0_0 : S100000x512.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  dot_S100000x512_S512x512_S100000x512_1_1_0_0_n_n_wf : DotDims.WF S100000x512 S512x512 S100000x512 [1] [1] [0] [0] [] []
  scatter_S100000x512_S100000x2_S100000_n_01_01_1_wf : ScatterDims.WF S100000x512 S100000x2 S100000 [] [0, 1] [0, 1] 1

variable [Facts₀]

def dot_S100000x512_S512x512_S100000x512_1_1_0_0_n_n : DotDims S100000x512 S512x512 S100000x512 where
  lhsContracting := [1]
  rhsContracting := [1]
  lhsNonContracting := [0]
  rhsNonContracting := [0]
  lhsBatch := []
  rhsBatch := []
  wf := dot_S100000x512_S512x512_S100000x512_1_1_0_0_n_n_wf
def scatter_S100000x512_S100000x2_S100000_n_01_01_1 : ScatterDims S100000x512 S100000x2 S100000 where
  updateWindowDims := []
  insertedWindowDims := [0, 1]
  scatterDimsToOperandDims := [0, 1]
  indexVectorDim := 1
  wf := scatter_S100000x512_S100000x2_S100000_n_01_01_1_wf

class Facts : Prop extends Facts₀ where

variable [Facts]
-- ==== Proof.LibDotRows.lean ====
/-
  A product of an `[m, k]` array by an `[n, k]` array over their SHARED LAST axis (rows against rows), read at an
  output index `(p, e)` on the extended reals as the plain sum `∑ⱼ A[p, j] · B[e, j]` over `j : Fin k` — for the
  vector unit's matrix product into a zero accumulator, whatever the two operands' float formats. The dimension
  numbers enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- The sum over the contraction index, re-indexed by the contracted axis's one coordinate. -/
theorem contract_sum_rows {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (A : FVec Ideal ⟨2, ![m, k]⟩ φ₁) (B : FVec Ideal ⟨2, ![n, k]⟩ φ₂) (p : Fin m) (e : Fin n) :
    ∑ q : D.contr.Idx, A (D.lhsIdx (ix2 p e) q) * B (D.rhsIdx (ix2 p e) q) = ∑ j : Fin k, A (ix2 p j) * B (ix2 e j) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 e j := funext fun a => Fin.ext (by
    match a with
    | ⟨0, _⟩ => exact hr0 _ _
    | ⟨1, _⟩ => exact (hr1 _ _).trans hk)
  rw [el, er]

/-- The vector unit's matrix product of rows against rows into the zero accumulator, at `(p, e)`. -/
theorem matmul_zero_rows_apply {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (A : FVec Ideal ⟨2, ![m, k]⟩ φ₁) (B : FVec Ideal ⟨2, ![n, k]⟩ φ₂)
    (p : Fin m) (e : Fin n) :
    FloatOps.matmul D prec A B (constant ⟨2, ![m, n]⟩ .f32 0x00000000#32) (ix2 p e) = ∑ j : Fin k, A (ix2 p j) * B (ix2 e j) :=
  (Ideal.matmul_constant_zero_apply D prec A B (ix2 p e)).trans (contract_sum_rows D hr hs hl0 hl1 hr0 hr1 A B p e)

end Cert.LibDotRows

end
-- ==== Proof.Layout.lean ====
/-
  The layout operations both programs use to cut the destination row out of the edge table and the first column out of
  the feature table, to stand a vector up as a one-column matrix, to repeat a column across a row, and to set two
  one-column matrices side by side — each read at an index written by coordinates. Over abstract extents; the side
  conditions are whatever a program states for its literal shapes.
-/
import Idealize.ShloMosaic.PureOps.Ideal
import Idealize.ShloMosaic.Lib.ValueIdx
import Idealize.ShloMosaic.Lib.Pipeline.Value

noncomputable section

namespace Cert.Layout

open Idealize.ShloMosaic Idealize.ShloMosaic.ValueIdx

variable {α : Type}

/-- Row `r` of a `[R, E]` table, sliced out as `[1, E]` and flattened to `[E]`, reads at `e` the table at `(r, e)`. -/
theorem row_apply {R E : ℕ} (r : ℕ) (hr : r < R) (T : (⟨2, ![R, E]⟩ : Shape).Idx → α)
    (hs : (⟨2, ![R, E]⟩ : Shape).Slices ![r, 0] ⟨2, ![1, E]⟩) (hc : (⟨2, ![1, E]⟩ : Shape).ShapeCasts ⟨1, ![E]⟩) (e : Fin E) :
    shapeCast ⟨1, ![E]⟩ (extractStridedSlice ⟨2, ![1, E]⟩ ![r, 0] T hs) hc (ix1 e) = T (ix2 (⟨r, hr⟩ : Fin R) e) := by
  rw [shapeCast_apply _ hc (ix1 e) (ix2 (0 : Fin 1) e)
    (by rw [Shape.rowMajor_val_two, Shape.rowMajor_val_one]; show 0 * E + e.val = e.val; omega)]
  exact extractStridedSlice_apply _ T hs _ _ (fun a => match a with
    | ⟨0, _⟩ => by show r = r + 0; omega
    | ⟨1, _⟩ => by show e.val = 0 + e.val; omega)

/-- Column 0 of an `[N, C]` table, sliced out as `[N, 1]` and flattened to `[N]`, reads at `n` the table at `(n, 0)`. -/
theorem col0_apply {N C : ℕ} (hC : 0 < C) (T : (⟨2, ![N, C]⟩ : Shape).Idx → α)
    (hs : (⟨2, ![N, C]⟩ : Shape).Slices ![0, 0] ⟨2, ![N, 1]⟩) (hc : (⟨2, ![N, 1]⟩ : Shape).ShapeCasts ⟨1, ![N]⟩) (n : Fin N) :
    shapeCast ⟨1, ![N]⟩ (extractStridedSlice ⟨2, ![N, 1]⟩ ![0, 0] T hs) hc (ix1 n) = T (ix2 n (⟨0, hC⟩ : Fin C)) := by
  rw [shapeCast_apply _ hc (ix1 n) (ix2 n (0 : Fin 1))
    (by rw [Shape.rowMajor_val_two, Shape.rowMajor_val_one]; show n.val * 1 + 0 = n.val; omega)]
  exact extractStridedSlice_apply _ T hs _ _ (fun a => match a with
    | ⟨0, _⟩ => by show n.val = 0 + n.val; omega
    | ⟨1, _⟩ => by show 0 = 0 + 0; rfl)

/-- A vector `[N]` reshaped to the one-column matrix `[N, 1]` reads at `(n, 0)` the vector at `n`. -/
theorem reshape_col_apply {N : ℕ} (v : (⟨1, ![N]⟩ : Shape).Idx → α) (hc : (⟨1, ![N]⟩ : Shape).ShapeCasts ⟨2, ![N, 1]⟩)
    (n : Fin N) (z : Fin 1) : shapeCast ⟨2, ![N, 1]⟩ v hc (ix2 n z) = v (ix1 n) :=
  shapeCast_apply v hc (ix2 n z) (ix1 n)
    (by rw [Shape.rowMajor_val_two, Shape.rowMajor_val_one]; show n.val = n.val * 1 + z.val; have := z.isLt; omega)

/-- A vector `[N]` (`1 < N`) broadcast in dimension 0 into the one-column matrix `[N, 1]` reads at `(n, 0)` the vector
    at `n`. -/
theorem bcast_col_apply {N : ℕ} (hN : N ≠ 1) (v : (⟨1, ![N]⟩ : Shape).Idx → α)
    (h : (⟨1, ![N]⟩ : Shape).BroadcastsInDim ⟨2, ![N, 1]⟩ ![0]) (n : Fin N) (z : Fin 1) :
    broadcastInDim ⟨2, ![N, 1]⟩ ![0] h v (ix2 n z) = v (ix1 n) :=
  broadcastInDim_apply _ h v (ix2 n z) (ix1 n) (fun a => match a with
    | ⟨0, _⟩ => by show n.val = if N = 1 then 0 else n.val; rw [if_neg hN])

/-- A scalar broadcast to any shape reads the scalar everywhere. -/
theorem bcast_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun a => a.elim0)

/-- A column `[P, 1]` repeated across `Q` columns reads at `(p, q)` the column at `(p, 0)`. -/
theorem col_across_apply {P Q : ℕ} (v : (⟨2, ![P, 1]⟩ : Shape).Idx → α) (h : (⟨2, ![P, 1]⟩ : Shape).Broadcasts ⟨2, ![P, Q]⟩)
    (p : Fin P) (q : Fin Q) : broadcastTo ⟨2, ![P, Q]⟩ v h (ix2 p q) = v (ix2 p (0 : Fin 1)) := by
  refine broadcastTo_apply v h (ix2 p q) (ix2 p (0 : Fin 1)) fun ax => ?_
  match ax with
  | ⟨0, _⟩ =>
    show p.val = if P = 1 then 0 else p.val
    split
    · have := p.isLt; omega
    · rfl
  | ⟨1, _⟩ => rfl

/-- Two one-column matrices set side by side: column 0 of the pair is the first … -/
theorem pair_cols_left {N : ℕ} (a b : (⟨2, ![N, 1]⟩ : Shape).Idx → α)
    (h : Shape.Concatenates [(⟨2, ![N, 1]⟩ : Shape), ⟨2, ![N, 1]⟩] ⟨2, ![N, 2]⟩ (1 : Fin 2)) (n : Fin N) :
    concatenate ⟨2, ![N, 2]⟩ (1 : Fin 2) [⟨⟨2, ![N, 1]⟩, a⟩, ⟨⟨2, ![N, 1]⟩, b⟩] h (ix2 n (0 : Fin 2)) = a (ix2 n (0 : Fin 1)) :=
  concatenate_pair_apply_left (1 : Fin 2) a b h (ix2 n (0 : Fin 2)) rfl (ix2 n (0 : Fin 1)) (fun c => match c with
    | ⟨0, _⟩ => rfl
    | ⟨1, _⟩ => rfl)

/-- … and column 1 the second. -/
theorem pair_cols_right {N : ℕ} (a b : (⟨2, ![N, 1]⟩ : Shape).Idx → α)
    (h : Shape.Concatenates [(⟨2, ![N, 1]⟩ : Shape), ⟨2, ![N, 1]⟩] ⟨2, ![N, 2]⟩ (1 : Fin 2)) (n : Fin N) :
    concatenate ⟨2, ![N, 2]⟩ (1 : Fin 2) [⟨⟨2, ![N, 1]⟩, a⟩, ⟨⟨2, ![N, 1]⟩, b⟩] h (ix2 n (1 : Fin 2)) = b (ix2 n (0 : Fin 1)) :=
  concatenate_pair_apply_right (1 : Fin 2) a b h (ix2 n (1 : Fin 2)) rfl rfl (ix2 n (0 : Fin 1))
    (fun c hc => match c with
      | ⟨0, _⟩ => rfl
      | ⟨1, _⟩ => absurd rfl hc)
    rfl

end Cert.Layout

end
-- ==== Proof.KernelPayload.lean ====
/-
  What one block of the kernel's output holds, entry by entry on the extended reals.

  At a grid point the body loads a `[2000, 512]` block of features, the whole `[512, 512]` weight matrix, the bias as a
  `[1, 512]` row and a `[2000, 1]` column of inflows, and stores `max (features · weightsᵀ + bias) 0` plus, in lane 0
  only, the inflow column. Entry `(p, j)` of the stored block is therefore
  `max (∑ₖ features[p, k] · weights[j, k] + bias[0, j]) 0 + (if j = 0 then inflows[p, 0] else 0)`: the matrix product
  contracts the shared last axis into a zero accumulator, the narrowing of the features to bf16 is the identity on
  extended reals, the bias row is repeated down the rows and the inflow column across the lanes, and the lane mask
  compares the lane number with 0.
-/
import proofs.«172196_j86887188398821_2_alg».proof.Proof.Gen.KernelIdeal.Skeleton
import proofs.«172196_j86887188398821_2_alg».proof.Proof.LibDotRows
import proofs.«172196_j86887188398821_2_alg».proof.Proof.Layout
import Idealize.ShloMosaic.Lib.ValueLayout
import Idealize.ShloMosaic.Lib.Pipeline.Value
import Idealize.ShloMosaic.PureOps.Ideal.Laws
import Idealize.ShloMosaic.Lib.Affine

noncomputable section

open scoped BigOperators

namespace Cert.KernelPayload

open Cert.KernelIdeal Cert.KernelIdeal.Gen Idealize.ShloMosaic Idealize.ShloMosaic.ValueIdx
open Facts₀ Facts

variable [Cert.KernelIdeal.Facts]

/-- A select on "the lane number is 0" is the `if` on the lane. -/
theorem lane0 (A B : EReal) (j : Fin 512) :
    Scalar.select (IntOp.cmpi .eq (BitVec.ofNat 32 j.val) 0#32) A B = if j.val = 0 then A else B := by
  by_cases hj : j.val = 0
  · rw [if_pos hj, hj]; rfl
  · rw [if_neg hj]
    have hc : IntOp.cmpi .eq (BitVec.ofNat 32 j.val) 0#32 = 0#1 := by
      refine eq_zero_of_ne_one fun h1 => hj ?_
      have h2 := congrArg BitVec.toNat (IntOp.cmpi_eq.1 h1)
      rw [BitVec.toNat_ofNat] at h2
      have h3 : (0#32 : BitVec 32).toNat = 0 := rfl
      have := j.isLt
      omega
    rw [hc, select_zero]

/-! The matrix product's dimension numbers: the output's row names the left operand's row, its column the right
operand's row, and the one contracted coordinate is the last axis of both. -/

theorem lhs0 (i : S2000x512.Idx) (q : dot_S2000x512_S512x512_S2000x512_1_1_0_0_n_n.contr.Idx) :
    (dot_S2000x512_S512x512_S2000x512_1_1_0_0_n_n.lhsIdx i q 0).val = (i 0).val := by
  unfold DotDims.lhsIdx
  rw [dif_neg (show ¬(0 : Fin S2000x512.rank) ∈ dot_S2000x512_S512x512_S2000x512_1_1_0_0_n_n.lhsBatch by decide),
    dif_pos (show (0 : Fin S2000x512.rank) ∈ dot_S2000x512_S512x512_S2000x512_1_1_0_0_n_n.lhsNonContracting by decide)]
  rfl
theorem lhs1 (i : S2000x512.Idx) (q : dot_S2000x512_S512x512_S2000x512_1_1_0_0_n_n.contr.Idx) :
    (dot_S2000x512_S512x512_S2000x512_1_1_0_0_n_n.lhsIdx i q 1).val = (q ⟨0, by decide⟩).val :=
  dot_S2000x512_S512x512_S2000x512_1_1_0_0_n_n.lhsIdx_val_of_single rfl i q
theorem rhs0 (i : S2000x512.Idx) (q : dot_S2000x512_S512x512_S2000x512_1_1_0_0_n_n.contr.Idx) :
    (dot_S2000x512_S512x512_S2000x512_1_1_0_0_n_n.rhsIdx i q 0).val = (i 1).val := by
  unfold DotDims.rhsIdx
  rw [dif_neg (show ¬(0 : Fin S512x512.rank) ∈ dot_S2000x512_S512x512_S2000x512_1_1_0_0_n_n.rhsBatch by decide),
    dif_pos (show (0 : Fin S512x512.rank) ∈ dot_S2000x512_S512x512_S2000x512_1_1_0_0_n_n.rhsNonContracting by decide)]
  rfl
theorem rhs1 (i : S2000x512.Idx) (q : dot_S2000x512_S512x512_S2000x512_1_1_0_0_n_n.contr.Idx) :
    (dot_S2000x512_S512x512_S2000x512_1_1_0_0_n_n.rhsIdx i q 1).val = (q ⟨0, by decide⟩).val :=
  dot_S2000x512_S512x512_S2000x512_1_1_0_0_n_n.rhsIdx_val_of_single rfl i q

/-- THE STORED BLOCK AT `(p, j)`. -/
theorem pay_apply (v0 : FVec Ideal S2000x512 .f32) (v2 : FVec Ideal S512x512 .bf16) (v5 : FVec Ideal S1x512 .f32)
    (v14 : FVec Ideal S2000x1 .f32) (p : Fin 2000) (j : Fin 512) :
    k0_pay1 (F := Ideal) v0 v2 v5 v14 (ix2 p j)
      = max ((∑ k : Fin 512, v0 (ix2 p k) * v2 (ix2 j k)) + v5 (ix2 (0 : Fin 1) j)) 0
        + if j.val = 0 then v14 (ix2 p (0 : Fin 1)) else 0 := by
  unfold k0_pay1
  simp only [shapeCast_self]
  show max (FloatOps.matmul dot_S2000x512_S512x512_S2000x512_1_1_0_0_n_n none (truncf .bf16 v0 Facts₀.bitsLt_bf16_f32) v2
          (constant S2000x512 .f32 0x00000000#32) (ix2 p j)
        + broadcastTo S2000x512 v5 Facts₀.broadcasts_S1x512_S2000x512 (ix2 p j)) (Ideal.ofBits .f32 0x00000000#32)
      + Scalar.select (IntOp.cmpi .eq (iota .tc S2000x512 32 [1] Facts₀.iota_S2000x512_d1_w32 (ix2 p j)) 0#32)
          (broadcastTo S2000x512 v14 Facts₀.broadcasts_S2000x1_S2000x512 (ix2 p j)) (Ideal.ofBits .f32 0x00000000#32) = _
  have hi : iota .tc S2000x512 32 [1] Facts₀.iota_S2000x512_d1_w32 (ix2 p j) = BitVec.ofNat 32 j.val :=
    iota_single_apply .tc S2000x512 32 1 Facts₀.iota_S2000x512_d1_w32 (ix2 p j)
  rw [Cert.LibDotRows.matmul_zero_rows_apply _ rfl rfl lhs0 lhs1 rhs0 rhs1, broadcastTo_1b_ab_apply,
    Cert.Layout.col_across_apply, hi, lane0, Ideal.ofBits_zero_f32]
  rfl

end Cert.KernelPayload

end
-- ==== Proof.Spec.lean ====
/-
  The function both programs compute, index by index on the extended reals.

  The inputs are a feature table `x : [100000, 512]`, an edge table `edge : [2, 100000]` of 32-bit words whose row 1
  names each edge's destination node, a weight matrix `W : [512, 512]` and a bias `b : [512]`. Entry `(n, j)` of the
  result is the rectified linear layer `max (∑ₖ x[n, k] · W[j, k] + b[j]) 0`, and in column 0 it also receives the inflow
  of node `n`: the sum, over the edges `e` whose destination is `n`, of `x[e, 0]` (edge `e` carries the first feature of
  row `e`; there are as many edges as rows).
-/
import Idealize.ShloMosaic.PureOps.Ideal
import Idealize.ShloMosaic.Lib.ValueIdx

noncomputable section

open scoped BigOperators

namespace Cert.Spec

open Idealize.ShloMosaic Idealize.ShloMosaic.ValueIdx

/-- The destination word of edge `e`: row 1 of the edge table. -/
def dst (edge : IVec ⟨2, ![2, 100000]⟩ 32) (e : Fin 100000) : BitVec 32 := edge (ix2 (1 : Fin 2) e)

/-- The edges whose destination, read as a signed integer, is node `n`. -/
def into (edge : IVec ⟨2, ![2, 100000]⟩ 32) (n : Fin 100000) : Finset (Fin 100000) :=
  Finset.univ.filter fun e => (dst edge e).toInt = (n.val : ℤ)

/-- What node `n` receives along its incoming edges: the first feature of each such edge's row, summed. -/
def inflow (x : FVec Ideal ⟨2, ![100000, 512]⟩ .f32) (edge : IVec ⟨2, ![2, 100000]⟩ 32) (n : Fin 100000) : EReal :=
  ∑ e ∈ into edge n, x (ix2 e (0 : Fin 512))

/-- The rectified linear layer at `(n, j)`. -/
def lin (x : FVec Ideal ⟨2, ![100000, 512]⟩ .f32) (W : FVec Ideal ⟨2, ![512, 512]⟩ .f32) (b : FVec Ideal ⟨1, ![512]⟩ .f32)
    (n : Fin 100000) (j : Fin 512) : EReal :=
  max ((∑ k : Fin 512, x (ix2 n k) * W (ix2 j k)) + b (ix1 j)) 0

/-- The result: the rectified linear layer, plus the node's inflow in column 0. -/
def G (x : FVec Ideal ⟨2, ![100000, 512]⟩ .f32) (edge : IVec ⟨2, ![2, 100000]⟩ 32) (W : FVec Ideal ⟨2, ![512, 512]⟩ .f32)
    (b : FVec Ideal ⟨1, ![512]⟩ .f32) : FVec Ideal ⟨2, ![100000, 512]⟩ .f32 :=
  fun i => lin x W b (i 0) (i 1) + if (i 1).val = 0 then inflow x edge (i 0) else 0

theorem G_apply (x : FVec Ideal ⟨2, ![100000, 512]⟩ .f32) (edge : IVec ⟨2, ![2, 100000]⟩ 32) (W : FVec Ideal ⟨2, ![512, 512]⟩ .f32)
    (b : FVec Ideal ⟨1, ![512]⟩ .f32) (n : Fin 100000) (j : Fin 512) :
    G x edge W b (ix2 n j) = lin x W b n j + if j.val = 0 then inflow x edge n else 0 := rfl

end Cert.Spec

end
-- ==== Proof.LibSegment.lean ====
/-
  Row gather and segment sum read at an index, over abstract extents `N` (rows of the table), `E` (number of start
  indices) and `C` (columns).

  * ROW GATHER. `stablehlo.gather` of a table `x : [N, C]` at start indices `idx : [E, 1]` with offset axis 1, collapsed
    axis 0, start index map `[0]`, index vector axis 1 and slice sizes `[1, C]` (what taking rows `x[src]` is) reads, at
    `(e, k)`, the table at row `idx[e, 0]` — the word read as a SIGNED integer and CLAMPED into `[0, N − 1]` — and
    column `k`: on axis 0 the operand coordinate is the clamped start, on axis 1 it is the offset coordinate `k`.
  * SEGMENT SUM. `stablehlo.scatter` with an add body into an operand `x : [N, C]` of updates `upd : [E, C]` at scatter
    indices `idx : [E, 1]` (update window axis 1, inserted window axis 0, scatter-dims-to-operand-dims `[0]`, index
    vector axis 1) is, at the extended reals and at `(i, k)`, `x (i, k)` plus the sum of `upd (e, k)` over the edges `e`
    whose index `idx[e, 0]`, read SIGNED and NOT clamped, equals `i`: update `(e, k')` lands at row `idx[e, 0]`, column
    `k'`, and is dropped when that row is outside `[0, N)`; so it lands on `(i, k)` exactly when `idx[e, 0] = i` and
    `k' = k`, and the filtered sum over update indices re-indexes to the sum over those edges.
  * The same for a vector operand `x : [N]` with updates `upd : [E]` (no window axis).
-/
import Idealize.ShloMosaic.PureOps.Ideal
import Idealize.ShloMosaic.Lib.ValueIdx

noncomputable section

open scoped BigOperators

namespace Cert.LibSegment

open Idealize.ShloMosaic Idealize.ShloMosaic.ValueIdx

/-- The row a start index names: read signed and clamped into `[0, N − 1]`. -/
def clampRow (N : ℕ) (hN : 0 < N) {w : ℕ} (v : BitVec w) : Fin N := ⟨min v.toInt.toNat (N - 1), by omega⟩

/-- The edges whose index, read signed and not clamped, is node `i`. -/
def landing {N E w : ℕ} (idx : IVec ⟨2, ![E, 1]⟩ w) (i : Fin N) : Finset (Fin E) :=
  Finset.univ.filter fun e => (idx (ix2 e (0 : Fin 1))).toInt = (i.val : ℤ)

/-! ## Row gather -/

/-- The dimension numbers of a row gather: operand `[N, C]`, start indices `[E, 1]`, result `[E, C]`; their conditions
    `wf` are decided on a program's literal shapes. -/
abbrev rowGatherDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row `idx[e, 0]` names (signed, clamped into `[0, N − 1]`) and
    column `k`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (clampRow N hN (idx (ix2 e (0 : Fin 1)))) k) := by
  unfold Host.gather
  congr 1
  funext a
  refine Fin.ext ?_
  match a with
  | ⟨0, _⟩ =>
    -- axis 0 is collapsed and named by the start index map: the coordinate is the clamped start
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the one kept axis, not named by the start index map: start 0, offset coordinate `k`
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hst : (rowGatherDims N E C wf).start (ix2 e k) idx 1 = 0 := by
      unfold GatherDims.start
      rw [dif_neg (fun h => absurd (List.mem_singleton.mp h) (show ¬ (1 : Fin 2) = 0 by decide))]
    rw [hst]
    simp only [Nat.add_zero, Nat.zero_add]
    rfl

/-! ## Scatter: where an update lands -/

/-- An update lands on operand index `i` exactly when, on every operand axis, its start plus its window coordinate is
    `i`'s coordinate (in particular inside the operand). -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg (fun f => (f a).val) hf
      simp only at h1
      have := h a
      omega
    · intro hall
      funext a
      refine Fin.ext ?_
      show (d.start j idx a + (d.window j a : ℤ)).toNat = (i a).val
      rw [hall a]; exact Int.toNat_natCast _
  · rename_i h
    constructor
    · intro h0; exact absurd h0 (by simp)
    · intro hall
      exfalso; apply h
      intro a
      rw [hall a]
      exact ⟨Int.natCast_nonneg _, by exact_mod_cast (i a).isLt⟩

/-! ## Segment sum into rows -/

/-- The dimension numbers of a row scatter: operand `[N, C]`, scatter indices `[E, 1]`, updates `[E, C]`; their
    conditions `wf` are decided on a program's literal shapes. -/
abbrev rowScatterDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k')` lands on `(i, k)` exactly when the index `idx[e, 0]`, read signed, is `i` and `k' = k`: on axis 0
    the start is the signed index and the window coordinate 0, on axis 1 the start is 0 and the window coordinate `k'`. -/
theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (k' : Fin C) (i : Fin N) (k : Fin C) :
    (rowScatterDims N E C wf).resultIdx? (ix2 e k') idx = some (ix2 i k)
      ↔ (idx (ix2 e (0 : Fin 1))).toInt = (i.val : ℤ) ∧ k' = k := by
  rw [resultIdx?_eq_some_iff]
  have hs0 : (rowScatterDims N E C wf).start (ix2 e k') idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e k') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e k') idx 1 = 0 := by
    unfold ScatterDims.start
    rw [dif_neg (fun h => absurd (List.mem_singleton.mp h) (show ¬ (1 : Fin 2) = 0 by decide))]
  have hw0 : (rowScatterDims N E C wf).window (ix2 e k') 0 = 0 := rfl
  have hw1 : (rowScatterDims N E C wf).window (ix2 e k') 1 = k'.val := rfl
  constructor
  · intro h
    have h0 := h 0
    have h1 := h 1
    rw [hs0, hw0] at h0
    rw [hs1, hw1] at h1
    have e0 : (((ix2 i k : (⟨2, ![N, C]⟩ : Shape).Idx) 0).val : ℤ) = (i.val : ℤ) := rfl
    have e1 : (((ix2 i k : (⟨2, ![N, C]⟩ : Shape).Idx) 1).val : ℤ) = (k.val : ℤ) := rfl
    rw [e0] at h0; rw [e1] at h1
    exact ⟨by omega, Fin.ext (by omega)⟩
  · rintro ⟨h0, rfl⟩ a
    match a with
    | ⟨0, _⟩ =>
      show (rowScatterDims N E C wf).start (ix2 e k') idx 0 + (((rowScatterDims N E C wf).window (ix2 e k') 0 : ℕ) : ℤ) = (i.val : ℤ)
      rw [hs0, hw0, h0]; simp
    | ⟨1, _⟩ =>
      show (rowScatterDims N E C wf).start (ix2 e k') idx 1 + (((rowScatterDims N E C wf).window (ix2 e k') 1 : ℕ) : ℤ) = (k'.val : ℤ)
      rw [hs1, hw1]; simp

/-- THE SEGMENT SUM READ AT `(i, k)`: the operand there plus the sum, over the edges whose index read signed is `i`, of
    the update at `(e, k)`. -/
theorem rowScatterAdd_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd (rowScatterDims N E C wf) x idx upd (ix2 i k) = x (ix2 i k) + ∑ e ∈ landing idx i, upd (ix2 e k) := by
  unfold Ideal.hostScatterAdd
  congr 1
  -- the update indices landing on `(i, k)` are the `(e, k)` with `e` an edge into `i`: re-index by the first coordinate
  refine Finset.sum_nbij' (fun j => (j 0 : Fin E)) (fun e => ix2 e k) ?_ ?_ ?_ ?_ ?_
  · intro j hj
    obtain ⟨e, k', rfl⟩ : ∃ (e : Fin E) (k' : Fin C), j = ix2 e k' := ⟨j 0, j 1, eq_ix2 j⟩
    have hl := (rowScatter_lands wf idx e k' i k).mp (Finset.mem_filter.mp hj).2
    exact Finset.mem_filter.mpr ⟨Finset.mem_univ _, hl.1⟩
  · intro e he
    exact Finset.mem_filter.mpr ⟨Finset.mem_univ _,
      (rowScatter_lands wf idx e k i k).mpr ⟨(Finset.mem_filter.mp he).2, rfl⟩⟩
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl
  · intro e _
    rfl
  · intro j hj
    obtain ⟨e, k', rfl⟩ : ∃ (e : Fin E) (k' : Fin C), j = ix2 e k' := ⟨j 0, j 1, eq_ix2 j⟩
    obtain ⟨_, rfl⟩ := (rowScatter_lands wf idx e k' i k).mp (Finset.mem_filter.mp hj).2
    rfl

/-! ## Segment sum into a vector -/

/-- The dimension numbers of a scatter into a vector: operand `[N]`, scatter indices `[E, 1]`, updates `[E]` (no window
    axis); their conditions `wf` are decided on a program's literal shapes. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on `i` exactly when the index `idx[e, 0]`, read signed, is `i`: on the one operand axis the start is
    the signed index and the window coordinate 0. -/
theorem vecScatter_lands {N E w : ℕ} (wf : ScatterDims.WF ⟨1, ![N]⟩ ⟨2, ![E, 1]⟩ ⟨1, ![E]⟩ [] [0] [0] 1)
    (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  have hs0 : (vecScatterDims N E wf).start (ix1 e) idx 0 = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatterDims N E wf).window (ix1 e) 0 = 0 := rfl
  constructor
  · intro h
    have h0 := h 0
    rw [hs0, hw0] at h0
    have e0 : (((ix1 i : (⟨1, ![N]⟩ : Shape).Idx) 0).val : ℤ) = (i.val : ℤ) := rfl
    rw [e0] at h0
    omega
  · intro h0 a
    match a with
    | ⟨0, _⟩ =>
      show (vecScatterDims N E wf).start (ix1 e) idx 0 + (((vecScatterDims N E wf).window (ix1 e) 0 : ℕ) : ℤ) = (i.val : ℤ)
      rw [hs0, hw0, h0]; simp

/-- THE SEGMENT SUM INTO A VECTOR READ AT `i`: the operand there plus the sum, over the edges whose index read signed
    is `i`, of the update at `e`. -/
theorem vecScatterAdd_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatterDims N E wf) x idx upd (ix1 i) = x (ix1 i) + ∑ e ∈ landing idx i, upd (ix1 e) := by
  unfold Ideal.hostScatterAdd
  congr 1
  -- the update indices landing on `i` are the edges into `i`: re-index by the one coordinate
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (vecScatter_lands wf idx e i).mp (Finset.mem_filter.mp hj).2⟩
  · intro e he
    exact Finset.mem_filter.mpr ⟨Finset.mem_univ _, (vecScatter_lands wf idx e i).mpr (Finset.mem_filter.mp he).2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end Cert.LibSegment

end
-- ==== Proof.KernelHost.lean ====
/-
  What the kernel's program prepares before its one region, as functions of the arguments.

  Three of the region's input arrays are computed by @main: the weights narrowed to bf16 (the identity on extended
  reals), the bias reshaped to one row, and the inflow column — the destination row of the edge table stood up as
  `[100000, 1]` scatter indices, the first feature column as updates, scattered with addition into a zero vector (a
  segment sum), and the result reshaped to `[100000, 1]`. Read at an index: the weights and bias are the arguments'
  entries, and the inflow column at `(n, 0)` is `0 + ∑` over the edges into `n` of `x[e, 0]`.
-/
import proofs.«172196_j86887188398821_2_alg».proof.Proof.Gen.KernelIdeal.Frame
import proofs.«172196_j86887188398821_2_alg».proof.Proof.Spec
import proofs.«172196_j86887188398821_2_alg».proof.Proof.Layout
import proofs.«172196_j86887188398821_2_alg».proof.Proof.LibSegment
import Idealize.ShloMosaic.Lib.StableHlo.Run
import Idealize.ShloMosaic.Lib.ValueLayout
import Idealize.ShloMosaic.PureOps.Ideal.Laws

noncomputable section

open scoped BigOperators

namespace Cert.KernelHost

open Cert.KernelIdeal Cert.KernelIdeal.Gen Idealize.ShloMosaic Idealize.ShloMosaic.TcCoe Idealize.SL.Sem
open Idealize.ShloMosaic.ValueIdx Idealize.ShloMosaic.StableHlo
open Facts₀ Facts

variable [Cert.KernelIdeal.Facts]
variable (m : (ℓ : Loc nD τ sig) → Buf (Elt Ideal) ℓ)

/-- The weights as the region finds them: the argument, narrowed. -/
theorem V_weights (c : Dev nD) :
    @Eq (S512x512.Idx → EReal) (V m c main_v8) (truncf (F := Ideal) (s := S512x512) (φ := .f32) .bf16 (m ((c : Thread nD τ).loc main_arg2)) Facts₀.bitsLt_bf16_f32) := by
  dsimp only [V, hostOps0]; after_results <;> rfl

/-- The bias as the region finds it: the argument as one row. -/
theorem V_bias (c : Dev nD) :
    @Eq (S1x512.Idx → EReal) (V m c main_v9) (shapeCast S1x512 (m ((c : Thread nD τ).loc main_arg3)) Facts₀.shapeCasts_S512_S1x512) := by
  dsimp only [V, hostOps0]; after_results <;> rfl

/-- The inflow column as the region finds it: the segment sum, as a column. -/
theorem V_inflow (c : Dev nD) :
    @Eq (S100000x1.Idx → EReal) (V m c main_v7)
      (shapeCast S100000x1
          (Host.scatterAdd (F := Ideal) scatter_S100000_S100000x1_S100000_n_0_0_1
            (broadcastInDim S100000 ![] Facts₀.bcast_S_S100000 (constant (F := Ideal) S_ .f32 0x00000000#32))
            (broadcastInDim S100000x1 ![0] Facts₀.bcast_S100000_S100000x1_0
              (shapeCast S100000 (extractStridedSlice S1x100000 ![1, 0] (m ((c : Thread nD τ).loc main_arg1))
                Facts₀.slices_S2x100000_S1x100000_1_0) Facts₀.shapeCasts_S1x100000_S100000))
            (shapeCast S100000 (extractStridedSlice S100000x1 ![0, 0] (m ((c : Thread nD τ).loc main_arg0))
              Facts₀.slices_S100000x512_S100000x1_0_0) Facts₀.shapeCasts_S100000x1_S100000))
          Facts₀.shapeCasts_S100000_S100000x1) := by
  dsimp only [V, hostOps0]; after_results <;> rfl

/-- The weights at `(j, k)`. -/
theorem weights_apply (c : Dev nD) (j k : Fin 512) :
    (V m c main_v8 : S512x512.Idx → EReal) (ix2 j k) = m ((c : Thread nD τ).loc main_arg2) (ix2 j k) := by
  rw [V_weights]; rfl

/-- The bias row at `(0, j)`. -/
theorem bias_apply (c : Dev nD) (j : Fin 512) :
    (V m c main_v9 : S1x512.Idx → EReal) (ix2 (0 : Fin 1) j) = m ((c : Thread nD τ).loc main_arg3) (ix1 j) := by
  rw [V_bias]
  exact shapeCast_a_1a_apply _ _ 0 j

/-- The inflow column at `(n, 0)`: zero plus the node's inflow. -/
theorem inflow_apply (c : Dev nD) (n : Fin 100000) (z : Fin 1) :
    (V m c main_v7 : S100000x1.Idx → EReal) (ix2 n z)
      = 0 + Cert.Spec.inflow (m ((c : Thread nD τ).loc main_arg0)) (m ((c : Thread nD τ).loc main_arg1)) n := by
  rw [V_inflow, Cert.Layout.reshape_col_apply]
  refine (Cert.LibSegment.vecScatterAdd_apply Facts₀.scatter_S100000_S100000x1_S100000_n_0_0_1_wf _ _ _ n).trans ?_
  rw [Cert.Layout.bcast_scalar_apply]
  refine congrArg₂ (· + ·) Ideal.ofBits_zero_f32 ?_
  unfold Cert.Spec.inflow Cert.LibSegment.landing Cert.Spec.into
  refine Finset.sum_congr (Finset.filter_congr fun e _ => ?_) (fun e _ => Cert.Layout.col0_apply (by decide) _ _ _ e)
  rw [Cert.Layout.bcast_col_apply (by decide), Cert.Layout.row_apply 1 (by decide)]
  exact Iff.rfl

end Cert.KernelHost

end
-- ==== Proof.KernelValue.lean ====
/-
  The kernel's result array is the specification `Spec.G` of the arguments.

  The grid has 50 points; point `t` works on rows `2000·t … 2000·t + 1999`: its feature block and its inflow block are
  those rows of the feature table and of the inflow column, the weights and the bias row are the same whole arrays at
  every point, and it writes back rows `2000·t …` of the result. So entry `(p, j)` of the block point `t` writes is the
  stored block's formula read at row `n = 2000·t + p` of the arguments, which is `Spec.G` at `(n, j)` (the inflow column
  carries `0 +` the inflow, the zero being the segment sum's starting value). The 50 blocks tile the result, row `n`
  lying in the block of point `n / 2000`, so the whole array ends holding `Spec.G`.
-/
import proofs.«172196_j86887188398821_2_alg».proof.Proof.Gen.KernelIdeal.Value
import proofs.«172196_j86887188398821_2_alg».proof.Proof.KernelPayload
import proofs.«172196_j86887188398821_2_alg».proof.Proof.KernelHost
import proofs.«172196_j86887188398821_2_alg».proof.Proof.Spec

noncomputable section

open scoped BigOperators

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)
open Facts₀ Facts

variable [Cert.KernelIdeal.Facts]
variable (m : (ℓ : Loc nD τ sig) → Buf (Elt Ideal) ℓ) (ρ : Dev nD → PrngReg)

theorem hz : (![0, 0] : Fin 2 → Nat) = fun _ => 0 := funext fun a => by fin_cases a <;> rfl

/-- The specification at the arguments as launched on core `c`. -/
abbrev result (c : Dev nD) : FVec Ideal S100000x512 .f32 :=
  Cert.Spec.G (m ((c : Thread nD τ).loc main_arg0)) (m ((c : Thread nD τ).loc main_arg1))
    (m ((c : Thread nD τ).loc main_arg2)) (m ((c : Thread nD τ).loc main_arg3))

/-- The printed index maps over the grid: the feature, inflow and result windows move down the rows with the point,
    the weight and bias windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0)

/-- What the body leaves in the output's buffer is the stored block: one store through the whole buffer, of the
    payload of the four whole-buffer loads. -/
theorem out_eq (x0 : Vec Ideal S2000x512 .f32) (x1 : Vec Ideal S512x512 .bf16) (x2 : Vec Ideal S1x512 .f32)
    (x3 : Vec Ideal S2000x1 .f32) : out0_4 (F := Ideal) x0 x1 x2 x3 = k0_pay1 x0 x1 x2 x3 := by
  unfold out0_4
  rw [View.canon_unit_zero hz]
  simp only [View.ld_unit_zero (S := S2000x512) hz, View.ld_unit_zero (S := S512x512) hz,
    View.ld_unit_zero (S := S1x512) hz, View.ld_unit_zero (S := S2000x1) hz]

/-- The stored block over blocks that are rows `n` of the arguments is the specification at row `n`. -/
theorem block_apply (x0 : FVec Ideal S2000x512 .f32) (x1 : FVec Ideal S512x512 .bf16) (x2 : FVec Ideal S1x512 .f32)
    (x3 : FVec Ideal S2000x1 .f32) (X : FVec Ideal S100000x512 .f32) (edge : IVec S2x100000 32)
    (W : FVec Ideal S512x512 .f32) (b : FVec Ideal S512 .f32) (n : Fin 100000) (p : Fin 2000) (j : Fin 512)
    (h0 : ∀ k : Fin 512, x0 (ix2 p k) = X (ix2 n k)) (h1 : ∀ k : Fin 512, x1 (ix2 j k) = W (ix2 j k))
    (h2 : x2 (ix2 (0 : Fin 1) j) = b (ix1 j)) (h3 : x3 (ix2 p (0 : Fin 1)) = 0 + Cert.Spec.inflow X edge n) :
    k0_pay1 (F := Ideal) x0 x1 x2 x3 (ix2 p j) = Cert.Spec.G X edge W b (ix2 n j) := by
  rw [Cert.KernelPayload.pay_apply, Cert.Spec.G_apply, h2, h3, zero_add]
  unfold Cert.Spec.lin
  simp only [h0, h1]

/-- WHAT POINT `t` WRITES, entry by entry: the specification at the entry's place in the result. -/
theorem flushed_apply (c : Dev nD) (t : Fin cfg0.N) (y : S2000x512.Idx) :
    out0_4 (iblk m c 0 t) (iblk m c 1 t) (iblk m c 2 t) (iblk m c 3 t) y
      = result m c (((cfg0.win 4).blk t).view.emb y) := by
  obtain ⟨p, j, rfl⟩ : ∃ (p : Fin 2000) (j : Fin 512), y = ix2 p j := ⟨y 0, y 1, eq_ix2 y⟩
  obtain ⟨e00, e01, e10, e11, e20, e21, e30, e31, e40, e41⟩ := idx_facts t
  have hN : cfg0.N = 50 := N_0
  have ht : t.val < 50 := by have := t.isLt; omega
  have hp : p.val < 2000 := p.isLt
  obtain ⟨n, hn⟩ : ∃ n : Fin 100000, n.val = t.val * 2000 + p.val := ⟨⟨t.val * 2000 + p.val, by omega⟩, rfl⟩
  have hemb : ((cfg0.win 4).blk t).view.emb (ix2 p j) = ix2 n j := funext fun a => Fin.ext (by
    match a with
    | ⟨0, _⟩ => show win0_4.index t (0 : Fin 2) * 2000 + 1 * p.val = n.val; rw [e40, hn]; omega
    | ⟨1, _⟩ => show win0_4.index t (1 : Fin 2) * 512 + 1 * j.val = j.val; rw [e41]; omega)
  rw [hemb]
  refine (congrFun (out_eq _ _ _ _) (ix2 p j)).trans ?_
  refine block_apply _ _ _ _ _ _ _ _ n p j (fun k => ?_) (fun k => ?_) ?_ ?_
  · -- the feature block: rows `2000·t …` of the feature table, which no host operation writes
    show V m c main_arg0 (((cfg0.win 0).blk t).view.emb (ix2 p k)) = m ((c : Thread nD τ).loc main_arg0) (ix2 n k)
    rw [V_main_arg0]
    exact congrArg (m ((c : Thread nD τ).loc main_arg0)) (funext fun a => Fin.ext (by
      match a with
      | ⟨0, _⟩ => show win0_0.index t (0 : Fin 2) * 2000 + 1 * p.val = n.val; rw [e00, hn]; omega
      | ⟨1, _⟩ => show win0_0.index t (1 : Fin 2) * 512 + 1 * k.val = k.val; rw [e01]; omega))
  · -- the weight block: the whole narrowed weight matrix
    show (V m c main_v8 : S512x512.Idx → EReal) (((cfg0.win 1).blk t).view.emb (ix2 j k))
      = m ((c : Thread nD τ).loc main_arg2) (ix2 j k)
    have he : ((cfg0.win 1).blk t).view.emb (ix2 j k) = ix2 j k := funext fun a => Fin.ext (by
      match a with
      | ⟨0, _⟩ => show win0_1.index t (0 : Fin 2) * 512 + 1 * j.val = j.val; rw [e10]; omega
      | ⟨1, _⟩ => show win0_1.index t (1 : Fin 2) * 512 + 1 * k.val = k.val; rw [e11]; omega)
    rw [he]
    exact Cert.KernelHost.weights_apply m c j k
  · -- the bias block: the whole bias row
    show (V m c main_v9 : S1x512.Idx → EReal) (((cfg0.win 2).blk t).view.emb (ix2 (0 : Fin 1) j))
      = m ((c : Thread nD τ).loc main_arg3) (ix1 j)
    have he : ((cfg0.win 2).blk t).view.emb (ix2 (0 : Fin 1) j) = ix2 (0 : Fin 1) j := funext fun a => Fin.ext (by
      match a with
      | ⟨0, _⟩ => show win0_2.index t (0 : Fin 2) * 1 + 1 * 0 = 0; rw [e20]
      | ⟨1, _⟩ => show win0_2.index t (1 : Fin 2) * 512 + 1 * j.val = j.val; rw [e21]; omega)
    rw [he]
    exact Cert.KernelHost.bias_apply m c j
  · -- the inflow block: rows `2000·t …` of the inflow column
    show (V m c main_v7 : S100000x1.Idx → EReal) (((cfg0.win 3).blk t).view.emb (ix2 p (0 : Fin 1)))
      = 0 + Cert.Spec.inflow (m ((c : Thread nD τ).loc main_arg0)) (m ((c : Thread nD τ).loc main_arg1)) n
    have he : ((cfg0.win 3).blk t).view.emb (ix2 p (0 : Fin 1)) = ix2 n (0 : Fin 1) := funext fun a => Fin.ext (by
      match a with
      | ⟨0, _⟩ => show win0_3.index t (0 : Fin 2) * 2000 + 1 * p.val = n.val; rw [e30, hn]; omega
      | ⟨1, _⟩ => show win0_3.index t (1 : Fin 2) * 1 + 1 * 0 = 0; rw [e31])
    rw [he]
    exact Cert.KernelHost.inflow_apply m c n 0

/-- WHAT POINT `t` WRITES BACK is block `t` of the specification. -/
theorem flushed_eq (c : Dev nD) (t : Fin cfg0.N) :
    (dats m 0 c).flushed 4 t = ((cfg0.win 4).blk t).view.read (Elt Ideal) (result m c) := by
  rw [Cert.KernelIdeal.Value.flushed4]
  funext y
  exact flushed_apply m c t y

/-- An index of the result is in point `t`'s block iff each coordinate is in the block's range on its axis. -/
theorem mem_blk (t : Fin cfg0.N) (i : S100000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v10).slice (win0_4.rect t)).set ↔ _
  rw [View.set_slice_whole, Rect.mem_set_unit]
  exact Iff.rfl

/-- The blocks tile the result: row `n` lies in the block of point `n / 2000`. -/
theorem cover (i : S100000x512.Idx) :
    ∃ t : Fin cfg0.N, (cfg0.win 4).flush t = true ∧ i ∈ ((cfg0.win 4).blk t).view.set := by
  have hi0 : (i 0).val < 100000 := (i 0).isLt
  have hi1 : (i 1).val < 512 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    rw [e40, ht]; omega
  | ⟨1, _⟩ =>
    show win0_4.index t (1 : Fin 2) * 512 ≤ (i 1).val ∧ (i 1).val < win0_4.index t (1 : Fin 2) * 512 + 512
    rw [e41]; omega

/-- THE RESULT ARRAY after the run is the specification of the arguments. -/
theorem final (c : Dev nD) : (dats m 0 c).arrAt 4 cfg0.N = result m c :=
  (dats m 0 c).arrAt_eq_of_cover 4 (result m c) (fun t _ => flushed_eq m c t) cover

/-- The run, read: the result at the specification, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelValue

end
-- ==== Proof.LibPointScatter.lean ====
/-
  A scatter of scalars onto single entries of a matrix, read at an index, over abstract extents `N` (rows), `C`
  (columns) and `E` (number of updates).

  `stablehlo.scatter` with an add body into an operand `x : [N, C]` of scalar updates `upd : [E]` at scatter indices
  `idx : [E, 2]` (no update window axis, both operand axes inserted, scatter-dims-to-operand-dims `[0, 1]`, index vector
  axis 1 — what `x.at[rows, cols].add(upd)` is) is, at the extended reals and at `(i, k)`, `x (i, k)` plus the sum of
  `upd e` over the updates `e` whose index pair `(idx[e, 0], idx[e, 1])`, each word read SIGNED and NOT clamped, is
  `(i, k)`: update `e` lands at row `idx[e, 0]`, column `idx[e, 1]`, and is dropped when that entry is outside the
  operand.
-/
import Idealize.ShloMosaic.PureOps.Ideal
import Idealize.ShloMosaic.Lib.ValueIdx
import proofs.«172196_j86887188398821_2_alg».proof.Proof.LibSegment

noncomputable section

open scoped BigOperators

namespace Cert.LibPointScatter

open Idealize.ShloMosaic Idealize.ShloMosaic.ValueIdx

/-- The dimension numbers of a scatter of scalars onto entries: operand `[N, C]`, scatter indices `[E, 2]`, updates
    `[E]`; their conditions `wf` are decided on a program's literal shapes. -/
abbrev pointScatterDims (N C E : ℕ) (wf : ScatterDims.WF ⟨2, ![N, C]⟩ ⟨2, ![E, 2]⟩ ⟨1, ![E]⟩ [] [0, 1] [0, 1] 1) :
    ScatterDims ⟨2, ![N, C]⟩ ⟨2, ![E, 2]⟩ ⟨1, ![E]⟩ where
  updateWindowDims := []
  insertedWindowDims := [0, 1]
  scatterDimsToOperandDims := [0, 1]
  indexVectorDim := 1
  wf := wf

/-- The updates whose index pair, each word read signed and not clamped, is `(i, k)`. -/
def hits {N C E w : ℕ} (idx : IVec ⟨2, ![E, 2]⟩ w) (i : Fin N) (k : Fin C) : Finset (Fin E) :=
  Finset.univ.filter fun e => (idx (ix2 e (0 : Fin 2))).toInt = (i.val : ℤ) ∧ (idx (ix2 e (1 : Fin 2))).toInt = (k.val : ℤ)

/-- Update `e` lands on `(i, k)` exactly when its index pair, read signed, is `(i, k)`: on each operand axis the start
    is that axis's signed index word and the window coordinate 0. -/
theorem pointScatter_lands {N C E w : ℕ} (wf : ScatterDims.WF ⟨2, ![N, C]⟩ ⟨2, ![E, 2]⟩ ⟨1, ![E]⟩ [] [0, 1] [0, 1] 1)
    (idx : IVec ⟨2, ![E, 2]⟩ w) (e : Fin E) (i : Fin N) (k : Fin C) :
    (pointScatterDims N C E wf).resultIdx? (ix1 e) idx = some (ix2 i k)
      ↔ (idx (ix2 e (0 : Fin 2))).toInt = (i.val : ℤ) ∧ (idx (ix2 e (1 : Fin 2))).toInt = (k.val : ℤ) := by
  rw [Cert.LibSegment.resultIdx?_eq_some_iff]
  have hs0 : (pointScatterDims N C E wf).start (ix1 e) idx 0 = (idx (ix2 e (0 : Fin 2))).toInt := by
    unfold ScatterDims.start
    rw [dif_pos (show (0 : Fin 2) ∈ (pointScatterDims N C E wf).scatterDimsToOperandDims from List.mem_cons_self)]
    have hsi : (pointScatterDims N C E wf).siIdx (ix1 e) ⟨List.idxOf (0 : Fin 2) (pointScatterDims N C E wf).scatterDimsToOperandDims,
        List.idxOf_lt_length_iff.2 List.mem_cons_self⟩ = ix2 e (0 : Fin 2) := by
      funext b; refine Fin.ext ?_
      match b with
      | ⟨0, _⟩ => rfl
      | ⟨1, _⟩ => rfl
    rw [hsi]
  have hs1 : (pointScatterDims N C E wf).start (ix1 e) idx 1 = (idx (ix2 e (1 : Fin 2))).toInt := by
    unfold ScatterDims.start
    rw [dif_pos (show (1 : Fin 2) ∈ (pointScatterDims N C E wf).scatterDimsToOperandDims from
      List.mem_cons_of_mem _ List.mem_cons_self)]
    have hsi : (pointScatterDims N C E wf).siIdx (ix1 e) ⟨List.idxOf (1 : Fin 2) (pointScatterDims N C E wf).scatterDimsToOperandDims,
        List.idxOf_lt_length_iff.2 (List.mem_cons_of_mem _ List.mem_cons_self)⟩ = ix2 e (1 : Fin 2) := by
      funext b; refine Fin.ext ?_
      match b with
      | ⟨0, _⟩ => rfl
      | ⟨1, _⟩ => rfl
    rw [hsi]
  have hw0 : (pointScatterDims N C E wf).window (ix1 e) 0 = 0 := rfl
  have hw1 : (pointScatterDims N C E wf).window (ix1 e) 1 = 0 := rfl
  constructor
  · intro h
    have h0 := h 0
    have h1 := h 1
    rw [hs0, hw0] at h0
    rw [hs1, hw1] at h1
    have e0 : (((ix2 i k : (⟨2, ![N, C]⟩ : Shape).Idx) 0).val : ℤ) = (i.val : ℤ) := rfl
    have e1 : (((ix2 i k : (⟨2, ![N, C]⟩ : Shape).Idx) 1).val : ℤ) = (k.val : ℤ) := rfl
    rw [e0] at h0; rw [e1] at h1
    exact ⟨by omega, by omega⟩
  · rintro ⟨h0, h1⟩ a
    match a with
    | ⟨0, _⟩ =>
      show (pointScatterDims N C E wf).start (ix1 e) idx 0 + (((pointScatterDims N C E wf).window (ix1 e) 0 : ℕ) : ℤ) = (i.val : ℤ)
      rw [hs0, hw0, h0]; simp
    | ⟨1, _⟩ =>
      show (pointScatterDims N C E wf).start (ix1 e) idx 1 + (((pointScatterDims N C E wf).window (ix1 e) 1 : ℕ) : ℤ) = (k.val : ℤ)
      rw [hs1, hw1, h1]; simp

/-- THE SCATTER OF SCALARS READ AT `(i, k)`: the operand there plus the sum, over the updates whose index pair read
    signed is `(i, k)`, of the update. -/
theorem pointScatterAdd_apply {N C E w : ℕ} (wf : ScatterDims.WF ⟨2, ![N, C]⟩ ⟨2, ![E, 2]⟩ ⟨1, ![E]⟩ [] [0, 1] [0, 1] 1)
    (x : (⟨2, ![N, C]⟩ : Shape).Idx → EReal) (idx : IVec ⟨2, ![E, 2]⟩ w) (upd : (⟨1, ![E]⟩ : Shape).Idx → EReal)
    (i : Fin N) (k : Fin C) :
    Ideal.hostScatterAdd (pointScatterDims N C E wf) x idx upd (ix2 i k) = x (ix2 i k) + ∑ e ∈ hits idx i k, upd (ix1 e) := by
  unfold Ideal.hostScatterAdd
  congr 1
  -- the update indices landing on `(i, k)` are the updates aimed at it: re-index by the one coordinate
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (pointScatter_lands wf idx e i k).mp (Finset.mem_filter.mp hj).2⟩
  · intro e he
    exact Finset.mem_filter.mpr ⟨Finset.mem_univ _, (pointScatter_lands wf idx e i k).mpr (Finset.mem_filter.mp he).2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end Cert.LibPointScatter

end
-- ==== Proof.RefValue.lean ====
/-
  The reference computes the specification `Spec.G`.

  The reference forms the rectified linear layer as a whole matrix and then scatters `x[e, 0]` onto entry
  `(dst'[e], 0)` for every edge `e`, where `dst'[e]` is the destination word with `100000` added when it reads
  negative. Under the domain hypothesis (no destination word reads negative) `dst'[e] = dst[e]`. An update lands on
  `(n, j)` exactly when `dst[e] = n` and `0 = j`: in column 0 the updates landing on row `n` are the edges into `n`, and
  in every other column there are none, so the scatter adds the node's inflow in column 0 and nothing elsewhere.
-/
import proofs.«172196_j86887188398821_2_alg».proof.Proof.Gen.ReferenceIdeal.Read
import proofs.«172196_j86887188398821_2_alg».proof.Proof.Spec
import proofs.«172196_j86887188398821_2_alg».proof.Proof.Layout
import proofs.«172196_j86887188398821_2_alg».proof.Proof.LibPointScatter
import Idealize.ShloMosaic.Lib.Affine

noncomputable section

open scoped BigOperators

namespace Cert.RefValue

open Cert.ReferenceIdeal Cert.ReferenceIdeal.Gen Cert.ReferenceIdeal.Read
open Idealize.ShloMosaic Idealize.ShloMosaic.ValueIdx
open Facts₀ Facts

variable [Cert.ReferenceIdeal.Facts]

/-- The destination row of the edge table, as the reference cuts it out. -/
theorem dstRow_apply (x1 : IVec S2x100000 32) (e : Fin 100000) :
    val_main_v6 (F := Ideal) x1 (ix1 e) = Cert.Spec.dst x1 e := by
  unfold val_main_v6 val_main_v5
  exact Cert.Layout.row_apply 1 (by decide) x1 _ _ e

/-- A destination word that does not read negative is left alone by the reference's wrap-around of negative indices. -/
theorem wrapped_apply (x1 : IVec S2x100000 32) (e : Fin 100000) (hpos : 0 ≤ (Cert.Spec.dst x1 e).toInt) :
    val_main_v13 (F := Ideal) x1 (ix1 e) = Cert.Spec.dst x1 e := by
  rw [val_main_v13_apply, val_main_v10_apply, dstRow_apply]
  have hc : IntOp.cmpi .slt (Cert.Spec.dst x1 e) (val_main_v9 (F := Ideal) (ix1 e)) = 0#1 := by
    refine eq_zero_of_ne_one fun h1 => ?_
    have h2 := IntOp.cmpi_slt.1 h1
    rw [val_main_v9_apply, val_main_c_apply] at h2
    have : (0#32 : BitVec 32).toInt = 0 := by decide
    omega
  rw [hc, select_zero]

/-- The first index word of update `e` is its destination word … -/
theorem idx_fst (x1 : IVec S2x100000 32) (e : Fin 100000) (hpos : 0 ≤ (Cert.Spec.dst x1 e).toInt) :
    val_main_v18 (F := Ideal) x1 (ix2 e (0 : Fin 2)) = Cert.Spec.dst x1 e := by
  unfold val_main_v18
  rw [Cert.Layout.pair_cols_left]
  unfold val_main_v16
  rw [Cert.Layout.bcast_col_apply (by decide)]
  exact wrapped_apply x1 e hpos

/-- … and the second the zero word: every update aims at column 0. -/
theorem idx_snd (x1 : IVec S2x100000 32) (e : Fin 100000) :
    val_main_v18 (F := Ideal) x1 (ix2 e (1 : Fin 2)) = 0#32 := by
  unfold val_main_v18
  rw [Cert.Layout.pair_cols_right]
  unfold val_main_v17
  rw [Cert.Layout.bcast_col_apply (by decide), val_main_v15_apply, val_main_v14_apply, val_main_c_1_apply]

/-- The update of edge `e` is the first feature of row `e`. -/
theorem upd_apply (x0 : FVec Ideal S100000x512 .f32) (e : Fin 100000) :
    val_main_v8 (F := Ideal) x0 (ix1 e) = x0 (ix2 e (0 : Fin 512)) := by
  unfold val_main_v8 val_main_v7
  exact Cert.Layout.col0_apply (by decide) x0 _ _ e

/-- The rectified linear layer, as the reference forms it, at `(n, j)`. -/
theorem lin_apply (x0 : FVec Ideal S100000x512 .f32) (x2 : FVec Ideal S512x512 .f32) (x3 : FVec Ideal S512 .f32)
    (n : Fin 100000) (j : Fin 512) :
    val_main_v4 (F := Ideal) x0 x2 x3 (ix2 n j) = Cert.Spec.lin x0 x2 x3 n j := by
  have el : ∀ k : Fin 512, lidx_main_v0 (ix2 n j) k = ix2 n k := fun k =>
    funext fun a => Fin.ext (by match a with | ⟨0, _⟩ => rfl | ⟨1, _⟩ => rfl)
  have er : ∀ k : Fin 512, ridx_main_v0 (ix2 n j) k = ix2 j k := fun k =>
    funext fun a => Fin.ext (by match a with | ⟨0, _⟩ => rfl | ⟨1, _⟩ => rfl)
  have eb : idx_main_v1 (idx_main_v2 (ix2 n j)) = ix1 j :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def, Ideal.ofBits_zero_f32]
  rfl

/-- THE REFERENCE IS THE SPECIFICATION, when no destination word reads negative. -/
theorem ref_eq_G (x0 : FVec Ideal S100000x512 .f32) (x1 : IVec S2x100000 32) (x2 : FVec Ideal S512x512 .f32)
    (x3 : FVec Ideal S512 .f32) (hpos : ∀ e, 0 ≤ (Cert.Spec.dst x1 e).toInt) :
    val_main_v19 (F := Ideal) x0 x1 x2 x3 = Cert.Spec.G x0 x1 x2 x3 := by
  funext i
  obtain ⟨n, j, rfl⟩ : ∃ (n : Fin 100000) (j : Fin 512), i = ix2 n j := ⟨i 0, i 1, eq_ix2 i⟩
  unfold val_main_v19
  show Ideal.hostScatterAdd (Cert.LibPointScatter.pointScatterDims 100000 512 100000
    Facts₀.scatter_S100000x512_S100000x2_S100000_n_01_01_1_wf) _ _ _ (ix2 n j) = _
  refine (Cert.LibPointScatter.pointScatterAdd_apply _ _ _ _ n j).trans ?_
  rw [Cert.Spec.G_apply]
  refine congrArg₂ (· + ·) (lin_apply x0 x2 x3 n j) ?_
  by_cases hj : j.val = 0
  · -- column 0: the updates landing on row `n` are the edges into `n`
    rw [if_pos hj]
    unfold Cert.Spec.inflow
    refine Finset.sum_congr ?_ (fun e _ => upd_apply x0 e)
    ext e
    simp only [Cert.LibPointScatter.hits, Cert.Spec.into, Finset.mem_filter, Finset.mem_univ, true_and,
      idx_fst x1 e (hpos e), idx_snd]
    refine ⟨fun h => h.1, fun h => ⟨h, ?_⟩⟩
    rw [hj]; decide
  · -- any other column: no update lands there
    rw [if_neg hj]
    refine (Finset.sum_congr (s₂ := ∅) ?_ (fun _ _ => rfl)).trans Finset.sum_empty
    refine Finset.filter_eq_empty_iff.mpr fun e _ h => hj ?_
    have h1 := h.2
    rw [idx_snd] at h1
    have : (0#32 : BitVec 32).toInt = 0 := by decide
    omega

end Cert.RefValue

end
-- ==== Proof.PreDomain.lean ====
/-
  What the precondition says of the edge table: every destination word, read as a signed integer, is nonnegative.

  The precondition is a conjunction of four "all" reductions; its last conjunct reduces, by "and" from 1, the one-bit
  array `dst[e] ≥ 0` (signed) over the destination row of the edge table. The whole being 1 makes that reduction 1,
  hence every bit of the array 1, hence every comparison true. The three finiteness conjuncts are not needed by the
  certificate: the two programs agree on all extended reals.
-/
import proofs.«172196_j86887188398821_2_alg».proof.Pre_finite_inputs
import proofs.«172196_j86887188398821_2_alg».proof.Proof.Spec
import proofs.«172196_j86887188398821_2_alg».proof.Proof.Layout
import Idealize.ShloMosaic.Lib.ReduceAll

noncomputable section

namespace Cert.PreDomain

open Idealize.ShloMosaic Idealize.ShloMosaic.ValueIdx Cert.Pre_finite_inputs

instance : Subsingleton S_.Idx := ⟨fun a b => funext fun d => d.elim0⟩

/-- THE PRECONDITION DECODED: every edge's destination word is nonnegative read signed. -/
theorem dst_nonneg [Cert.Pre_finite_inputs.Facts] {F : FTy → Type} [FloatOps F]
    (x : FVec F S100000x512 .f32) (edge : IVec S2x100000 32) (W : FVec F S512x512 .f32) (b : FVec F S512 .f32)
    (h : Cert.Pre_finite_inputs.fn (F := F) x edge W b = fun _ => 1#1) (e : Fin 100000) :
    0 ≤ (Cert.Spec.dst edge e).toInt := by
  have h0 := congrFun h ix0
  unfold Cert.Pre_finite_inputs.fn Cert.Pre_finite_inputs.fn_part1 at h0
  dsimp only at h0
  -- the last conjunct: the "all" over the comparison array
  have h1 := (IntOp.andi_eq_one.1 h0).2
  have h2 := Host.reduce_andi_all _ _ _ _ _ h1 (ix1 e)
  -- the comparison at edge `e`: the destination word against the zero word
  have h3 := IntOp.cmpi_sge.1 h2
  rw [Cert.Layout.bcast_scalar_apply, Cert.Layout.row_apply 1 (by decide)] at h3
  have z : (0#32 : BitVec 32).toInt = 0 := by decide
  have h4 : (constantI S_ 32 (0#32) ix0 : BitVec 32) = 0#32 := rfl
  rw [h4, z] at h3
  exact h3

end Cert.PreDomain

end
-- ==== Proof.lean ====
/-
  A linear layer with a rectifier, plus a scatter-add of the first feature column along a graph's edges, computed two
  ways — the certificate that they agree on the extended reals.

  Inputs: features `x : [100000, 512]`, an edge table `edge : [2, 100000]` whose row 1 holds each edge's destination
  node, weights `W : [512, 512]`, bias `b : [512]`. Both programs compute

      out[n, j] = max (∑ₖ x[n, k] · W[j, k] + b[j]) 0 + (if j = 0 then ∑ over edges e into n of x[e, 0] else 0)

  (`Spec.G`). The reference forms the rectified matrix and scatters `x[e, 0]` onto entry `(dst[e], 0)`, wrapping a
  negative destination around by the number of rows. The kernel first sums the updates per destination into a vector
  (a segment sum into zeros, which drops a negative destination instead of wrapping it), then in one pass over 50 blocks
  of 2000 rows multiplies, adds the bias, rectifies, and adds the per-node sum into lane 0. The two treatments of a
  negative destination differ, so the statement carries the hypothesis that no destination word reads negative;
  destinations at or beyond the number of rows are dropped by both programs and need no hypothesis. Under it the two
  results are the same function: the only algebra is `0 + s = s` (the segment sum starts from zeros) and `r + 0 = r`
  (lanes other than 0), both valid on all extended reals, so finiteness of the float inputs is never used.

  `KernelValue.run`: the kernel's run ends with the result array at `Spec.G` of the arguments (the generated frame run,
  each block read at an index, the blocks tiling the array). `RefValue.ref_eq_G`: the reference's composed term is
  `Spec.G` when no destination reads negative. `PreDomain.dst_nonneg`: the precondition gives that. The three frames are
  the generated ones (the reference's is its generated run with the result dropped); the ideal pass rewrote nothing, so
  `preserves` is `True`.
-/
import proofs.«172196_j86887188398821_2_alg».proof.Defs
import proofs.«172196_j86887188398821_2_alg».proof.Proof.Gen.Kernel
import proofs.«172196_j86887188398821_2_alg».proof.Proof.Gen.Kernel.Skeleton
import proofs.«172196_j86887188398821_2_alg».proof.Proof.Gen.Kernel.Launch
import proofs.«172196_j86887188398821_2_alg».proof.Proof.Gen.Kernel.Points
import proofs.«172196_j86887188398821_2_alg».proof.Proof.Gen.Kernel.Frame
import proofs.«172196_j86887188398821_2_alg».proof.Proof.Gen.KernelIdeal
import proofs.«172196_j86887188398821_2_alg».proof.Proof.Gen.KernelIdeal.Skeleton
import proofs.«172196_j86887188398821_2_alg».proof.Proof.Gen.KernelIdeal.Launch
import proofs.«172196_j86887188398821_2_alg».proof.Proof.Gen.KernelIdeal.Points
import proofs.«172196_j86887188398821_2_alg».proof.Proof.Gen.KernelIdeal.Frame
import proofs.«172196_j86887188398821_2_alg».proof.Proof.Gen.ReferenceIdeal
import proofs.«172196_j86887188398821_2_alg».proof.Proof.Gen.Pre_finite_inputs
import proofs.«172196_j86887188398821_2_alg».proof.Proof.Gen.KernelIdeal.Value
import proofs.«172196_j86887188398821_2_alg».proof.Proof.Gen.ReferenceIdeal.Run
import proofs.«172196_j86887188398821_2_alg».proof.Proof.Gen.ReferenceIdeal.Read
import proofs.«172196_j86887188398821_2_alg».proof.Proof.KernelValue
import proofs.«172196_j86887188398821_2_alg».proof.Proof.RefValue
import proofs.«172196_j86887188398821_2_alg».proof.Proof.PreDomain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `Spec.G` of the (agreeing) arguments: the kernel's by its blocks, the
    reference's because no destination word reads negative under the precondition. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq,
    Cert.RefValue.ref_eq_G _ _ _ _ (fun e => by
      rw [(hagree c).2.1]
      exact Cert.PreDomain.dst_nonneg _ _ _ _ (hpre c) e),
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
